-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x2048 : Shape := ⟨2, ![2048, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x4096x2048 .f32) (main_arg1 : FVec F S2048x2048 .f32) (main_arg2 : FVec F S2048 .f32) (main_arg3 : FVec F S2048x2048 .f32) (main_arg4 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x4096x2048 : Shape := ⟨3, ![8, 4096, 2048]⟩
abbrev S2048x2048 : Shape := ⟨2, ![2048, 2048]⟩
abbrev S2048 : Shape := ⟨1, ![2048]⟩
abbrev S8x4096x4 : Shape := ⟨3, ![8, 4096, 4]⟩
abbrev S8x4096x1 : Shape := ⟨3, ![8, 4096, 1]⟩
abbrev S8x4096 : Shape := ⟨2, ![8, 4096]⟩
abbrev S32768x4 : Shape := ⟨2, ![32768, 4]⟩
abbrev S2048x4 : Shape := ⟨2, ![2048, 4]⟩
abbrev S4x2048 : Shape := ⟨2, ![4, 2048]⟩
abbrev S1x2048 : Shape := ⟨2, ![1, 2048]⟩
abbrev S32768x2048 : Shape := ⟨2, ![32768, 2048]⟩
abbrev S512x4 : Shape := ⟨2, ![512, 4]⟩
abbrev S512x2048 : Shape := ⟨2, ![512, 2048]⟩
abbrev S512x1 : Shape := ⟨2, ![512, 1]⟩

abbrev nBuf : Space → Nat
  | .hbm => 35
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8x4096x4, .f32⟩
  | .hbm, ⟨6, _⟩ => ⟨S8x4096x4, .f32⟩
  | .hbm, ⟨7, _⟩ => ⟨S8x4096x1, .f32⟩
  | .hbm, ⟨8, _⟩ => ⟨S8x4096, .f32⟩
  | .hbm, ⟨9, _⟩ => ⟨S8x4096x1, .f32⟩
  | .hbm, ⟨10, _⟩ => ⟨S8x4096, .f32⟩
  | .hbm, ⟨11, _⟩ => ⟨S8x4096x1, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096, .f32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x4, .f32⟩
  | .hbm, ⟨26, _⟩ => ⟨S32768x4, .f32⟩
  | .hbm, ⟨27, _⟩ => ⟨S2048x4, .f32⟩
  | .hbm, ⟨28, _⟩ => ⟨S4x2048, .f32⟩
  | .hbm, ⟨29, _⟩ => ⟨S2048x2048, .f32⟩
  | .hbm, ⟨30, _⟩ => ⟨S2048x2048, .bf16⟩
  | .hbm, ⟨31, _⟩ => ⟨S1x2048, .f32⟩
  | .hbm, ⟨32, _⟩ => ⟨S1x2048, .f32⟩
  | .hbm, ⟨33, _⟩ => ⟨S32768x2048, .f32⟩
  | .hbm, ⟨34, _⟩ => ⟨S8x4096x2048, .f32⟩
  | .local _ .vmem, ⟨0, _⟩ => ⟨S512x4, .f32⟩
  | .local _ .vmem, ⟨1, _⟩ => ⟨S512x4, .f32⟩
  | .local _ .vmem, ⟨2, _⟩ => ⟨S4x2048, .f32⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x2048_S8x4096x4_0_0_0 : S8x4096x2048.Slices ![0, 0, 0] S8x4096x4
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x1_S8x4096x1_S8x4096x1_S8x4096x1_S8x4096x4_d2 : Shape.Concatenates [S8x4096x1, S8x4096x1, S8x4096x1, S8x4096x1] S8x4096x4 2
  shapeCasts_S8x4096x4_S32768x4 : S8x4096x4.ShapeCasts S32768x4
  slices_S2048x2048_S2048x4_0_0 : S2048x2048.Slices ![0, 0] S2048x4
  transposes_S2048x4_S4x2048_1_0 : S2048x4.Transposes [1, 0] S4x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  slices_S512x4_o0_0_S512x1 : S512x4.Slices ![0, 0] S512x1
  slices_S4x2048_o0_0_S1x2048 : S4x2048.Slices ![0, 0] S1x2048
  broadcasts_S512x1_S512x2048 : S512x1.Broadcasts S512x2048
  broadcasts_S1x2048_S512x2048 : S1x2048.Broadcasts S512x2048
  slices_S512x4_o0_1_S512x1 : S512x4.Slices ![0, 1] S512x1
  slices_S4x2048_o1_0_S1x2048 : S4x2048.Slices ![1, 0] S1x2048
  slices_S512x4_o0_2_S512x1 : S512x4.Slices ![0, 2] S512x1
  slices_S4x2048_o2_0_S1x2048 : S4x2048.Slices ![2, 0] S1x2048
  slices_S512x4_o0_3_S512x1 : S512x4.Slices ![0, 3] S512x1
  slices_S4x2048_o3_0_S1x2048 : S4x2048.Slices ![3, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x2048_S512x2048_0_0 : ∀ a, (![0, 0] : Fin 2 → Nat) a + S512x2048.size a ≤ S512x2048.size a
  h_S512x2048 : 0 < S512x2048.numel
  shapeCasts_S32768x2048_S8x4096x2048 : S32768x2048.ShapeCasts S8x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S32768x4.size a
  hwx0_0 : ∀ i : grid0.Coords, EltTy.bits .f32 = 32 ∨ (Rect.block (s := S32768x4) S512x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S32768x2048.size a
  hwx0_5 : ∀ i : grid0.Coords, EltTy.bits .f32 = 32 ∨ (Rect.block (s := S32768x2048) S512x2048.size (cc0_transform_5 i) (hinb0_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v21) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x2048 : Shape := ⟨2, ![2048, 2048]⟩
abbrev S2048 : Shape := ⟨1, ![2048]⟩
abbrev S8x4096x4 : Shape := ⟨3, ![8, 4096, 4]⟩
abbrev S8x4096x1 : Shape := ⟨3, ![8, 4096, 1]⟩
abbrev S8x4096 : Shape := ⟨2, ![8, 4096]⟩
abbrev S_ : Shape := ⟨0, ![]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8x4096x4, .f32⟩
  | .hbm, ⟨6, _⟩ => ⟨S8x4096x4, .f32⟩
  | .hbm, ⟨7, _⟩ => ⟨S8x4096x1, .f32⟩
  | .hbm, ⟨8, _⟩ => ⟨S8x4096, .f32⟩
  | .hbm, ⟨9, _⟩ => ⟨S8x4096x1, .f32⟩
  | .hbm, ⟨10, _⟩ => ⟨S8x4096, .f32⟩
  | .hbm, ⟨11, _⟩ => ⟨S8x4096x1, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096, .f32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x4, .f32⟩
  | .hbm, ⟨26, _⟩ => ⟨S_, .i32⟩
  | .hbm, ⟨27, _⟩ => ⟨S_, .f32⟩
  | .hbm, ⟨28, _⟩ => ⟨S8x4096x2048, .f32⟩
  | .hbm, ⟨29, _⟩ => ⟨S8x4096x2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S_, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S1x1x2048, .f32⟩
  | .hbm, ⟨38, _⟩ => ⟨S8x4096x2048, .f32⟩
  | .hbm, ⟨39, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call1_cst : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  slices_S8x4096x2048_S8x4096x4_0_0_0 : S8x4096x2048.Slices ![0, 0, 0] S8x4096x4
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x1_S8x4096x1_S8x4096x1_S8x4096x1_S8x4096x4_d2 : Shape.Concatenates [S8x4096x1, S8x4096x1, S8x4096x1, S8x4096x1] S8x4096x4 2
  pads_S8x4096x4_S8x4096x2048_000_000_020440 : S8x4096x4.Pads (![0, 0, 0] : Fin 3 → Nat) ![0, 0, 2044] ![0, 0, 0] S8x4096x2048
  h_S_ : 0 < S_.numel
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  dot_S8x4096x2048_S2048x2048_S8x4096x2048_2_1_01_0_n_n_wf : DotDims.WF S8x4096x2048 S2048x2048 S8x4096x2048 [2] [1] [0, 1] [0] [] []

variable [Facts₀]

def dot_S8x4096x2048_S2048x2048_S8x4096x2048_2_1_01_0_n_n : DotDims S8x4096x2048 S2048x2048 S8x4096x2048 where
  lhsContracting := [2]
  rhsContracting := [1]
  lhsNonContracting := [0, 1]
  rhsNonContracting := [0]
  lhsBatch := []
  rhsBatch := []
  wf := dot_S8x4096x2048_S2048x2048_S8x4096x2048_2_1_01_0_n_n_wf

class Facts : Prop extends Facts₀ where

variable [Facts]
-- ==== Proof.BitsRegion.lean ====
/-
  The word-level kernel's run, from launch to the last host line: the same program as its idealization, read at
  any float instance. The host computes the four cosine features of every token, the transposed weight slices and
  the biases as rows; a grid of 64 points handles 512 tokens each and writes its [512, 2048] block of the result
  back; a last host line reshapes the result to [8, 4096, 2048].

  This module runs that program: the state the grid starts from, what one grid point leaves in the result block's
  buffer, and the whole run — from which the program terminates, faults nowhere and leaves its arguments as launched.
-/
import proofs.«104519_j65481071402365_2_alg».proof.Proof.Gen.Kernel.Launch
import proofs.«104519_j65481071402365_2_alg».proof.Proof.Gen.Kernel.Skeleton
import proofs.«104519_j65481071402365_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the grid starts

The twenty-eight host lines before the call (the cosine features, the transposed weight slices, the biases as rows)
have run; every buffer holds what those lines computed from the launch memory. -/

/-- Core `c`'s buffers after the host lines that precede the call. -/
abbrev entryVal (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := entryVal m c (Proc.devRef .tc b)

theorem before_alloc_none : (hostOps0 : List (HloOp τ sig (Elt F))).Forall fun op => op.fresh = ∅ := by
  simp only [List.Forall]; repeat' constructor
theorem after_alloc_none : (hostOps1 : List (HloOp τ sig (Elt F))).Forall fun op => op.fresh = ∅ := by
  simp only [List.Forall]; repeat' constructor

/-- @main is: the lines before the call, the call, the one reshape after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc_none) main_chain

/-- The reshape after the call touches only the call's arrays and buffers that bypass it, -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_alloc_none : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_alloc_none) op hop
/-- and writes its own result buffer, which is no array of the call. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The arguments stay as launched -/

/-- No host line before the call writes argument 0: the grid finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 0 ends as launched. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg0 (by exact (by decide : ∀ w, Pipeline.arrRef spec0 w ≠ main_arg0))]
  exact entry_arg0 m c

/-- No host line before the call writes argument 1: the grid finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 1 ends as launched. -/
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg1 (by exact (by decide : ∀ w, Pipeline.arrRef spec0 w ≠ main_arg1))]
  exact entry_arg1 m c

/-- No host line before the call writes argument 2: the grid finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 2 ends as launched. -/
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg2 (by exact (by decide : ∀ w, Pipeline.arrRef spec0 w ≠ main_arg2))]
  exact entry_arg2 m c

/-- No host line before the call writes argument 3: the grid finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 3 ends as launched. -/
theorem exit_arg3 (dats : (p : Fin _) → (c : Dev nD) → Dat τ (Elt F) Unit ℕ (UR sig nD τ) ℕ (cfgs p) c) (c : Dev nD) :
    Pipeline.afterTail₀ cfgs dats 0 (entryVal m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg3 (by exact (by decide : ∀ w, Pipeline.arrRef spec0 w ≠ main_arg3))]
  exact entry_arg3 m c

/-- No host line before the call writes argument 4: the grid finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 4 ends as launched. -/
theorem exit_arg4 (dats : (p : Fin _) → (c : Dev nD) → Dat τ (Elt F) Unit ℕ (UR sig nD τ) ℕ (cfgs p) c) (c : Dev nD) :
    Pipeline.afterTail₀ cfgs dats 0 (entryVal m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg4 (by exact (by decide : ∀ w, Pipeline.arrRef spec0 w ≠ main_arg4))]
  exact entry_arg4 m c

/-! ## The blocks a grid point is given -/

/-- Window `w`'s block at point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current buffer holds its block at every point, fetched there or not: an unfetched window's block
    index has not moved. -/
theorem found0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current buffer holds its block at every point, fetched there or not: an unfetched window's block
    index has not moved. -/
theorem found1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current buffer holds its block at every point, fetched there or not: an unfetched window's block
    index has not moved. -/
theorem found2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current buffer holds its block at every point, fetched there or not: an unfetched window's block
    index has not moved. -/
theorem found3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current buffer holds its block at every point, fetched there or not: an unfetched window's block
    index has not moved. -/
theorem found4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run that names the arrays -/

/-- A run ending with every array of the call at the library's reading of the proof data, and every other unscoped
    buffer as the last reshape leaves it, ends with the five arguments as launched: none is an array of the call. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).2 main_arg4 (Pipeline.mem_restRefs_of main_arg4 (by decide) (by decide))).trans (exit_arg4 m dats c)⟩) h

/-! ## One grid point

The body reads its five input buffers whole, computes the [512, 2048] result block — the hidden layer
`max(q·w1ᵀ + b1, 0)` from the four features, then its product with W2ᵀ plus b2 — and stores it whole. -/

abbrev boxQ : Rect S512x4 := Rect.unit (s := S512x4) ![0, 0] S512x4.size inb_S512x4_S512x4_0_0
abbrev boxW1 : Rect S4x2048 := Rect.unit (s := S4x2048) ![0, 0] S4x2048.size inb_S4x2048_S4x2048_0_0
abbrev boxRow : Rect S1x2048 := Rect.unit (s := S1x2048) ![0, 0] S1x2048.size inb_S1x2048_S1x2048_0_0
abbrev boxW2 : Rect S2048x2048 := Rect.unit (s := S2048x2048) ![0, 0] S2048x2048.size inb_S2048x2048_S2048x2048_0_0
abbrev boxOut : Rect S512x2048 := Rect.unit (s := S512x2048) ![0, 0] S512x2048.size inb_S512x2048_S512x2048_0_0

/-- What the body leaves in the result block's buffer, from the five blocks it read: its one store, of the whole
    block. -/
def stored (q : Vec F S512x4 .f32) (w1 : Vec F S4x2048 .f32) (b1 : Vec F S1x2048 .f32) (w2 : Vec F S2048x2048 .bf16) (b2 : Vec F S1x2048 .f32) :
    Vec F S512x2048 .f32 :=
  View.canon [⟨boxOut, k0_pay1 (View.ld q boxQ) (View.ld w1 boxW1) (View.ld b1 boxRow) (View.ld w2 boxW2) (View.ld b2 boxRow)⟩]

/-- That store covers the buffer. -/
theorem store_covers (p0 : Vec F S512x2048 .f32) (y : S512x2048.Idx) :
    ∃ pc ∈ ([⟨boxOut, p0⟩] : List (View.Piece (Elt F) S512x2048 .f32)), y ∈ pc.1.set :=
  View.cover_of_tiled [⟨boxOut, p0⟩] S512x2048.size (by rfl) y

set_option maxHeartbeats 1000000 in
/-- The body on whole buffers, the inputs' at read contents and the result's at anything, runs to its end with the
    inputs' as they were and the result's at `stored` of them. -/
theorem body_runs (c : Dev nD) (E : Set ℕ) (i : grid0.Coords)
    (a1 : Memref sig .tc .vmem S512x4 .f32) (h1 : a1.IsWhole) (a2 : Memref sig .tc .vmem S4x2048 .f32) (h2 : a2.IsWhole)
    (a3 : Memref sig .tc .vmem S1x2048 .f32) (h3 : a3.IsWhole) (a4 : Memref sig .tc .vmem S2048x2048 .bf16) (h4 : a4.IsWhole)
    (a5 : Memref sig .tc .vmem S1x2048 .f32) (h5 : a5.IsWhole) (a6 : Memref sig .tc .vmem S512x2048 .f32) (h6 : a6.IsWhole)
    (q : Vec F S512x4 .f32) (w1 : Vec F S4x2048 .f32) (b1 : Vec F S1x2048 .f32) (w2 : Vec F S2048x2048 .bf16) (b2 : Vec F S1x2048 .f32)
    (K : PUnit → sProp 𝕄) :
    iprop(owns (c : Thread nD τ) a1 fullShare q ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare q ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (stored q w1 b1 w2 b2)) -∗ K ⟨⟩))
      ⊢ wp frame (wpE (defs₀ (F := F)) Variants.none c none) E (cc0__ffn_kernel i a1 h1 a2 h2 a3 h3 a4 h4 a5 h5 a6 h6) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The proof data of the grid -/

/-- On core `c`: the arrays as the grid finds them; after the body at point `t` each input buffer still at its block
    and the result buffer at `stored` of the five blocks; nothing else is kept between points. -/
def gridData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (blockAt m c 0 t) (blockAt m c 1 t) (blockAt m c 2 t) (blockAt m c 3 t) (blockAt m c 4 t)
  Φ _ := Pipeline.ΦA spec0 c
  q _ := fullShare
  owed _ := 0

theorem arrays_entry (c : Dev nD) (w : Fin cfg0.W) : (gridData m 0 c).A w = atEntry m c (Pipeline.arrRef spec0 w) := by
  dsimp only [gridData]

theorem left0 (c : Dev nD) (t : Fin cfg0.N) : (gridData m 0 c).after 0 t = blockAt m c 0 t := by dsimp only [gridData]
theorem left1 (c : Dev nD) (t : Fin cfg0.N) : (gridData m 0 c).after 1 t = blockAt m c 1 t := by dsimp only [gridData]
theorem left2 (c : Dev nD) (t : Fin cfg0.N) : (gridData m 0 c).after 2 t = blockAt m c 2 t := by dsimp only [gridData]
theorem left3 (c : Dev nD) (t : Fin cfg0.N) : (gridData m 0 c).after 3 t = blockAt m c 3 t := by dsimp only [gridData]
theorem left4 (c : Dev nD) (t : Fin cfg0.N) : (gridData m 0 c).after 4 t = blockAt m c 4 t := by dsimp only [gridData]
theorem left5 (c : Dev nD) (t : Fin cfg0.N) : (gridData m 0 c).after 5 t
    = stored (blockAt m c 0 t) (blockAt m c 1 t) (blockAt m c 2 t) (blockAt m c 3 t) (blockAt m c 4 t) := by dsimp only [gridData]

theorem given0 (c : Dev nD) (t : Fin cfg0.N) (d) : (gridData m 0 c).before 0 t d = blockAt m c 0 t :=
  found0 m (gridData m 0 c) (arrays_entry m c 0) (left0 m c) t d
theorem given1 (c : Dev nD) (t : Fin cfg0.N) (d) : (gridData m 0 c).before 1 t d = blockAt m c 1 t :=
  found1 m (gridData m 0 c) (arrays_entry m c 1) (left1 m c) t d
theorem given2 (c : Dev nD) (t : Fin cfg0.N) (d) : (gridData m 0 c).before 2 t d = blockAt m c 2 t :=
  found2 m (gridData m 0 c) (arrays_entry m c 2) (left2 m c) t d
theorem given3 (c : Dev nD) (t : Fin cfg0.N) (d) : (gridData m 0 c).before 3 t d = blockAt m c 3 t :=
  found3 m (gridData m 0 c) (arrays_entry m c 3) (left3 m c) t d
theorem given4 (c : Dev nD) (t : Fin cfg0.N) (d) : (gridData m 0 c).before 4 t d = blockAt m c 4 t :=
  found4 m (gridData m 0 c) (arrays_entry m c 4) (left4 m c) t d

/-! ## The body at a generic point -/

/-- What the body is handed at point `t`, -/
def handed (c : Dev nD) (t : Fin cfg0.N) : sProp 𝕄 :=
  iprop((gridData m 0 c).Φ t.castSucc ∗ (gridData m 0 c).owesAt () t.castSucc
    ∗ (∃ d, owns (c : Thread nD τ) (st0_0 t) fullShare ((gridData m 0 c).before 0 t d))
    ∗ (∃ d, owns (c : Thread nD τ) (st0_1 t) fullShare ((gridData m 0 c).before 1 t d))
    ∗ (∃ d, owns (c : Thread nD τ) (st0_2 t) fullShare ((gridData m 0 c).before 2 t d))
    ∗ (∃ d, owns (c : Thread nD τ) (st0_3 t) fullShare ((gridData m 0 c).before 3 t d))
    ∗ (∃ d, owns (c : Thread nD τ) (st0_4 t) fullShare ((gridData m 0 c).before 4 t d))
    ∗ (∃ d, owns (c : Thread nD τ) (st0_5 t) fullShare ((gridData m 0 c).before 5 t d)))

/-- and what it hands back. -/
def returned (c : Dev nD) (t : Fin cfg0.N) : sProp 𝕄 :=
  iprop((gridData m 0 c).Φ t.succ ∗ (gridData m 0 c).owesAt () t.succ
    ∗ owns (c : Thread nD τ) (st0_0 t) fullShare ((gridData m 0 c).after 0 t)
    ∗ owns (c : Thread nD τ) (st0_1 t) fullShare ((gridData m 0 c).after 1 t)
    ∗ owns (c : Thread nD τ) (st0_2 t) fullShare ((gridData m 0 c).after 2 t)
    ∗ owns (c : Thread nD τ) (st0_3 t) fullShare ((gridData m 0 c).after 3 t)
    ∗ owns (c : Thread nD τ) (st0_4 t) fullShare ((gridData m 0 c).after 4 t)
    ∗ owns (c : Thread nD τ) (st0_5 t) fullShare ((gridData m 0 c).after 5 t))

/-- The body at any point: the input buffers hold their blocks, so `body_runs` applies; the invariant and the core's
    debts pass through untouched. -/
theorem point_runs (c : Dev nD) (t : Fin cfg0.N) :
    handed m c t ⊢ wp frame (wpE (defs₀ (F := F)) Variants.none c none) Set.univ (bodyAt0 t) (fun _ => returned m c t) := by
  unfold handed returned bodyAt0
  simp only [given0, given1, given2, given3, given4]
  rw [show (gridData m 0 c).Φ t.succ = (gridData m 0 c).Φ t.castSucc from rfl,
    show (gridData m 0 c).owesAt () t.succ = (gridData m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem every_point (c : Dev nD) : BodyObligation (gridData (F := F) m 0 c) (defs₀ (F := F)) Variants.none () Set.univ := fun t => by
  rw [bigSep_W0, bigSep_W0]
  exact point_runs m c t

/-! ## The run -/

set_option backward.isDefEq.respectTransparency.types false in
/-- Every weakly fair execution of @main terminates, with every array of the call at the library's reading of the
    proof data and every other unscoped buffer as the reshape after the call leaves it. -/
theorem whole_run : θ_run defs (onTc (τ := τ) (main (F := F))) (s₀ m ρ)
    (Pipeline.FramePost cfgs (gridData m) 0 (Pipeline.afterTail₀ cfgs (gridData m) 0 (entryVal m) [hostOps1])) :=
  Pipeline.θ_run_frame_around cfgs (gridData m) (0 : Fin 1) launch0 defs₀ Variants.none m ρ main
    (hbody := fun c => (every_point m c).loose) (hshare := fun c => (gridData m 0 c).share_full fun _ => rfl)
    (howed := fun _ _ => rfl) (V₀ := entryVal m) (opss := [hostOps1]) (hsub := tail_within) (hfresh := tail_alloc_none) (hkeep := tail_keeps)
    (hmain := main_around m Variants.none) (hA := arrays_entry m) (hΦ := fun _ _ => rfl)

/-- The program terminates, faults nowhere and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (gridData m) (whole_run m ρ)

end Cert.Kernel.Region

end
-- ==== Proof.IdealRegion.lean ====
/-
  The idealized kernel's run, from launch to the last host line.

  @main computes, on the host, the four "quantum" features of every token — q = (cos x₀, cos x₀ · cos x₁, cos x₂,
  cos x₂ · cos x₃) of the token's first four coordinates — as a [32768, 4] array, the first four columns of W1
  transposed to [4, 2048], W2 transposed, and the two biases as [1, 2048] rows; one grid of 64 points then handles 512
  tokens each: the point's [512, 4] block of q, the four whole parameter arrays, and the [512, 2048] block of the
  result it writes back; a last host line reshapes the [32768, 2048] result to [8, 4096, 2048].

  This module runs that program: the state the grid starts from, what one grid point leaves in the result block's
  buffer as a function of the blocks it was given, and the whole run with every array of the call named at its end.
-/
import proofs.«104519_j65481071402365_2_alg».proof.Proof.Gen.KernelIdeal.Launch
import proofs.«104519_j65481071402365_2_alg».proof.Proof.Gen.KernelIdeal.Skeleton
import proofs.«104519_j65481071402365_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the grid starts

The twenty-eight host lines before the call (the cosine features, the transposed weight slices, the biases as rows)
have run; every buffer holds what those lines computed from the launch memory. -/

/-- Core `c`'s buffers after the host lines that precede the call. -/
abbrev entryVal (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := entryVal m c (Proc.devRef .tc b)

theorem before_alloc_none : (hostOps0 : List (HloOp τ sig (Elt F))).Forall fun op => op.fresh = ∅ := by
  simp only [List.Forall]; repeat' constructor
theorem after_alloc_none : (hostOps1 : List (HloOp τ sig (Elt F))).Forall fun op => op.fresh = ∅ := by
  simp only [List.Forall]; repeat' constructor

/-- @main is: the lines before the call, the call, the one reshape after it. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_alloc_none) main_chain

/-- The reshape after the call touches only the call's arrays and buffers that bypass it, -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_alloc_none : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_alloc_none) op hop
/-- and writes its own result buffer, which is no array of the call. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The arguments stay as launched -/

/-- No host line before the call writes argument 0: the grid finds it as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 0 ends as launched. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg0 (by exact (by decide : ∀ w, Pipeline.arrRef spec0 w ≠ main_arg0))]
  exact entry_arg0 m c

/-- No host line before the call writes argument 1: the grid finds it as launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 1 ends as launched. -/
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg1 (by exact (by decide : ∀ w, Pipeline.arrRef spec0 w ≠ main_arg1))]
  exact entry_arg1 m c

/-- No host line before the call writes argument 2: the grid finds it as launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 2 ends as launched. -/
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg2 (by exact (by decide : ∀ w, Pipeline.arrRef spec0 w ≠ main_arg2))]
  exact entry_arg2 m c

/-- No host line before the call writes argument 3: the grid finds it as launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 3 ends as launched. -/
theorem exit_arg3 (dats : (p : Fin _) → (c : Dev nD) → Dat τ (Elt F) Unit ℕ (UR sig nD τ) ℕ (cfgs p) c) (c : Dev nD) :
    Pipeline.afterTail₀ cfgs dats 0 (entryVal m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg3 (by exact (by decide : ∀ w, Pipeline.arrRef spec0 w ≠ main_arg3))]
  exact entry_arg3 m c

/-- No host line before the call writes argument 4: the grid finds it as launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- Nor does the reshape after it: argument 4 ends as launched. -/
theorem exit_arg4 (dats : (p : Fin _) → (c : Dev nD) → Dat τ (Elt F) Unit ℕ (UR sig nD τ) ℕ (cfgs p) c) (c : Dev nD) :
    Pipeline.afterTail₀ cfgs dats 0 (entryVal m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entryVal m c) _ main_arg4 (by exact (by decide : ∀ w, Pipeline.arrRef spec0 w ≠ main_arg4))]
  exact entry_arg4 m c

/-! ## The blocks a grid point is given -/

/-- Window `w`'s block at point `t`, read off its array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current buffer holds its block at every point, fetched there or not: an unfetched window's block
    index has not moved. -/
theorem found0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current buffer holds its block at every point, fetched there or not: an unfetched window's block
    index has not moved. -/
theorem found1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current buffer holds its block at every point, fetched there or not: an unfetched window's block
    index has not moved. -/
theorem found2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current buffer holds its block at every point, fetched there or not: an unfetched window's block
    index has not moved. -/
theorem found3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current buffer holds its block at every point, fetched there or not: an unfetched window's block
    index has not moved. -/
theorem found4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame from a run that names the arrays -/

/-- A run ending with every array of the call at the library's reading of the proof data, and every other unscoped
    buffer as the last reshape leaves it, ends with the five arguments as launched: none is an array of the call. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).2 main_arg4 (Pipeline.mem_restRefs_of main_arg4 (by decide) (by decide))).trans (exit_arg4 m dats c)⟩) h

/-! ## One grid point

The body reads its five input buffers whole, computes the [512, 2048] result block — the hidden layer
`max(q·w1ᵀ + b1, 0)` from the four features, then its product with W2ᵀ plus b2 — and stores it whole. -/

abbrev boxQ : Rect S512x4 := Rect.unit (s := S512x4) ![0, 0] S512x4.size inb_S512x4_S512x4_0_0
abbrev boxW1 : Rect S4x2048 := Rect.unit (s := S4x2048) ![0, 0] S4x2048.size inb_S4x2048_S4x2048_0_0
abbrev boxRow : Rect S1x2048 := Rect.unit (s := S1x2048) ![0, 0] S1x2048.size inb_S1x2048_S1x2048_0_0
abbrev boxW2 : Rect S2048x2048 := Rect.unit (s := S2048x2048) ![0, 0] S2048x2048.size inb_S2048x2048_S2048x2048_0_0
abbrev boxOut : Rect S512x2048 := Rect.unit (s := S512x2048) ![0, 0] S512x2048.size inb_S512x2048_S512x2048_0_0

/-- What the body leaves in the result block's buffer, from the five blocks it read: its one store, of the whole
    block. -/
def stored (q : Vec F S512x4 .f32) (w1 : Vec F S4x2048 .f32) (b1 : Vec F S1x2048 .f32) (w2 : Vec F S2048x2048 .bf16) (b2 : Vec F S1x2048 .f32) :
    Vec F S512x2048 .f32 :=
  View.canon [⟨boxOut, k0_pay1 (View.ld q boxQ) (View.ld w1 boxW1) (View.ld b1 boxRow) (View.ld w2 boxW2) (View.ld b2 boxRow)⟩]

/-- That store covers the buffer. -/
theorem store_covers (p0 : Vec F S512x2048 .f32) (y : S512x2048.Idx) :
    ∃ pc ∈ ([⟨boxOut, p0⟩] : List (View.Piece (Elt F) S512x2048 .f32)), y ∈ pc.1.set :=
  View.cover_of_tiled [⟨boxOut, p0⟩] S512x2048.size (by rfl) y

set_option maxHeartbeats 1000000 in
/-- The body on whole buffers, the inputs' at read contents and the result's at anything, runs to its end with the
    inputs' as they were and the result's at `stored` of them. -/
theorem body_runs (c : Dev nD) (E : Set ℕ) (i : grid0.Coords)
    (a1 : Memref sig .tc .vmem S512x4 .f32) (h1 : a1.IsWhole) (a2 : Memref sig .tc .vmem S4x2048 .f32) (h2 : a2.IsWhole)
    (a3 : Memref sig .tc .vmem S1x2048 .f32) (h3 : a3.IsWhole) (a4 : Memref sig .tc .vmem S2048x2048 .bf16) (h4 : a4.IsWhole)
    (a5 : Memref sig .tc .vmem S1x2048 .f32) (h5 : a5.IsWhole) (a6 : Memref sig .tc .vmem S512x2048 .f32) (h6 : a6.IsWhole)
    (q : Vec F S512x4 .f32) (w1 : Vec F S4x2048 .f32) (b1 : Vec F S1x2048 .f32) (w2 : Vec F S2048x2048 .bf16) (b2 : Vec F S1x2048 .f32)
    (K : PUnit → sProp 𝕄) :
    iprop(owns (c : Thread nD τ) a1 fullShare q ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare q ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (stored q w1 b1 w2 b2)) -∗ K ⟨⟩))
      ⊢ wp frame (wpE (defs₀ (F := F)) Variants.none c none) E (cc0__ffn_kernel i a1 h1 a2 h2 a3 h3 a4 h4 a5 h5 a6 h6) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The proof data of the grid -/

/-- On core `c`: the arrays as the grid finds them; after the body at point `t` each input buffer still at its block
    and the result buffer at `stored` of the five blocks; nothing else is kept between points. -/
def gridData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (blockAt m c 0 t) (blockAt m c 1 t) (blockAt m c 2 t) (blockAt m c 3 t) (blockAt m c 4 t)
  Φ _ := Pipeline.ΦA spec0 c
  q _ := fullShare
  owed _ := 0

theorem arrays_entry (c : Dev nD) (w : Fin cfg0.W) : (gridData m 0 c).A w = atEntry m c (Pipeline.arrRef spec0 w) := by
  dsimp only [gridData]

theorem left0 (c : Dev nD) (t : Fin cfg0.N) : (gridData m 0 c).after 0 t = blockAt m c 0 t := by dsimp only [gridData]
theorem left1 (c : Dev nD) (t : Fin cfg0.N) : (gridData m 0 c).after 1 t = blockAt m c 1 t := by dsimp only [gridData]
theorem left2 (c : Dev nD) (t : Fin cfg0.N) : (gridData m 0 c).after 2 t = blockAt m c 2 t := by dsimp only [gridData]
theorem left3 (c : Dev nD) (t : Fin cfg0.N) : (gridData m 0 c).after 3 t = blockAt m c 3 t := by dsimp only [gridData]
theorem left4 (c : Dev nD) (t : Fin cfg0.N) : (gridData m 0 c).after 4 t = blockAt m c 4 t := by dsimp only [gridData]
theorem left5 (c : Dev nD) (t : Fin cfg0.N) : (gridData m 0 c).after 5 t
    = stored (blockAt m c 0 t) (blockAt m c 1 t) (blockAt m c 2 t) (blockAt m c 3 t) (blockAt m c 4 t) := by dsimp only [gridData]

theorem given0 (c : Dev nD) (t : Fin cfg0.N) (d) : (gridData m 0 c).before 0 t d = blockAt m c 0 t :=
  found0 m (gridData m 0 c) (arrays_entry m c 0) (left0 m c) t d
theorem given1 (c : Dev nD) (t : Fin cfg0.N) (d) : (gridData m 0 c).before 1 t d = blockAt m c 1 t :=
  found1 m (gridData m 0 c) (arrays_entry m c 1) (left1 m c) t d
theorem given2 (c : Dev nD) (t : Fin cfg0.N) (d) : (gridData m 0 c).before 2 t d = blockAt m c 2 t :=
  found2 m (gridData m 0 c) (arrays_entry m c 2) (left2 m c) t d
theorem given3 (c : Dev nD) (t : Fin cfg0.N) (d) : (gridData m 0 c).before 3 t d = blockAt m c 3 t :=
  found3 m (gridData m 0 c) (arrays_entry m c 3) (left3 m c) t d
theorem given4 (c : Dev nD) (t : Fin cfg0.N) (d) : (gridData m 0 c).before 4 t d = blockAt m c 4 t :=
  found4 m (gridData m 0 c) (arrays_entry m c 4) (left4 m c) t d

/-! ## The body at a generic point -/

/-- What the body is handed at point `t`, -/
def handed (c : Dev nD) (t : Fin cfg0.N) : sProp 𝕄 :=
  iprop((gridData m 0 c).Φ t.castSucc ∗ (gridData m 0 c).owesAt () t.castSucc
    ∗ (∃ d, owns (c : Thread nD τ) (st0_0 t) fullShare ((gridData m 0 c).before 0 t d))
    ∗ (∃ d, owns (c : Thread nD τ) (st0_1 t) fullShare ((gridData m 0 c).before 1 t d))
    ∗ (∃ d, owns (c : Thread nD τ) (st0_2 t) fullShare ((gridData m 0 c).before 2 t d))
    ∗ (∃ d, owns (c : Thread nD τ) (st0_3 t) fullShare ((gridData m 0 c).before 3 t d))
    ∗ (∃ d, owns (c : Thread nD τ) (st0_4 t) fullShare ((gridData m 0 c).before 4 t d))
    ∗ (∃ d, owns (c : Thread nD τ) (st0_5 t) fullShare ((gridData m 0 c).before 5 t d)))

/-- and what it hands back. -/
def returned (c : Dev nD) (t : Fin cfg0.N) : sProp 𝕄 :=
  iprop((gridData m 0 c).Φ t.succ ∗ (gridData m 0 c).owesAt () t.succ
    ∗ owns (c : Thread nD τ) (st0_0 t) fullShare ((gridData m 0 c).after 0 t)
    ∗ owns (c : Thread nD τ) (st0_1 t) fullShare ((gridData m 0 c).after 1 t)
    ∗ owns (c : Thread nD τ) (st0_2 t) fullShare ((gridData m 0 c).after 2 t)
    ∗ owns (c : Thread nD τ) (st0_3 t) fullShare ((gridData m 0 c).after 3 t)
    ∗ owns (c : Thread nD τ) (st0_4 t) fullShare ((gridData m 0 c).after 4 t)
    ∗ owns (c : Thread nD τ) (st0_5 t) fullShare ((gridData m 0 c).after 5 t))

/-- The body at any point: the input buffers hold their blocks, so `body_runs` applies; the invariant and the core's
    debts pass through untouched. -/
theorem point_runs (c : Dev nD) (t : Fin cfg0.N) :
    handed m c t ⊢ wp frame (wpE (defs₀ (F := F)) Variants.none c none) Set.univ (bodyAt0 t) (fun _ => returned m c t) := by
  unfold handed returned bodyAt0
  simp only [given0, given1, given2, given3, given4]
  rw [show (gridData m 0 c).Φ t.succ = (gridData m 0 c).Φ t.castSucc from rfl,
    show (gridData m 0 c).owesAt () t.succ = (gridData m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem every_point (c : Dev nD) : BodyObligation (gridData (F := F) m 0 c) (defs₀ (F := F)) Variants.none () Set.univ := fun t => by
  rw [bigSep_W0, bigSep_W0]
  exact point_runs m c t

/-! ## The run -/

set_option backward.isDefEq.respectTransparency.types false in
/-- Every weakly fair execution of @main terminates, with every array of the call at the library's reading of the
    proof data and every other unscoped buffer as the reshape after the call leaves it. -/
theorem whole_run : θ_run defs (onTc (τ := τ) (main (F := F))) (s₀ m ρ)
    (Pipeline.FramePost cfgs (gridData m) 0 (Pipeline.afterTail₀ cfgs (gridData m) 0 (entryVal m) [hostOps1])) :=
  Pipeline.θ_run_frame_around cfgs (gridData m) (0 : Fin 1) launch0 defs₀ Variants.none m ρ main
    (hbody := fun c => (every_point m c).loose) (hshare := fun c => (gridData m 0 c).share_full fun _ => rfl)
    (howed := fun _ _ => rfl) (V₀ := entryVal m) (opss := [hostOps1]) (hsub := tail_within) (hfresh := tail_alloc_none) (hkeep := tail_keeps)
    (hmain := main_around m Variants.none) (hA := arrays_entry m) (hΦ := fun _ _ => rfl)

/-- The program terminates, faults nowhere and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_kept m ρ (gridData m) (whole_run m ρ)

end Cert.KernelIdeal.Region

end
-- ==== Proof.FfnSpec.lean ====
/-
  The feed-forward block both programs compute, as one function of its parameters.

  A token's four features q₀ … q₃ meet the first four columns of W1: hidden unit g is
  `max(q₀·W1[g,0] + q₁·W1[g,1] + q₂·W1[g,2] + q₃·W1[g,3] + b1[g], 0)`, and output coordinate e of the token is
  `Σ_g hidden_g · W2[e,g] + b2[e]`. The reference reaches the hidden unit through a sum over all 2048 columns of W1
  against the features padded with zeros; on the extended reals a zero factor kills its product whatever the other
  factor is, so that sum is the four-term one (`sum_zero_padded`): no finiteness is needed anywhere.
-/
import Idealize.ShloMosaic.PureOps.Ideal
import Idealize.ShloMosaic.PureOps.Ideal.Laws
import Idealize.ShloMosaic.Lib.ValueIdx

noncomputable section

namespace Cert.Ffn

open Idealize.ShloMosaic Idealize.ShloMosaic.ValueIdx
open scoped BigOperators

/-- The zero the rectifier compares with, as both programs spell it. -/
abbrev zero32 : EReal := Ideal.ofBits .f32 0x00000000#32

/-- A hidden unit before the rectifier: four features against four weights, added left to right, plus the bias. -/
def preact (q w : Fin 4 → EReal) (b : EReal) : EReal := q 0 * w 0 + q 1 * w 1 + q 2 * w 2 + q 3 * w 3 + b

/-- The first four columns, as columns of the full width. -/
abbrev col (k : Fin 4) : Fin 2048 := ⟨k.val, by omega⟩

/-- The block's result for token (b, s) at output coordinate e, from the token features `Q` [8, 4096, 4] and the
    parameters as the programs receive them: W1, W2 [2048, 2048] (row = output unit), b1, b2 [2048]. -/
def ffn (Q : (⟨3, ![8, 4096, 4]⟩ : Shape).Idx → EReal) (W1 : (⟨2, ![2048, 2048]⟩ : Shape).Idx → EReal)
    (b1 : (⟨1, ![2048]⟩ : Shape).Idx → EReal) (W2 : (⟨2, ![2048, 2048]⟩ : Shape).Idx → EReal)
    (b2 : (⟨1, ![2048]⟩ : Shape).Idx → EReal) : (⟨3, ![8, 4096, 2048]⟩ : Shape).Idx → EReal := fun i =>
  (∑ g : Fin 2048, max (preact (fun k => Q (ix3 (i 0) (i 1) k)) (fun k => W1 (ix2 g (col k))) (b1 (ix1 g))) zero32
      * W2 (ix2 (i 2) g)) + b2 (ix1 (i 2))

/-- The same over `R` rows of tokens laid flat, with the parameters as the grid receives them: the four columns of W1
    as rows [4, 2048], W2 transposed [2048, 2048] (row = hidden unit), the biases as [1, 2048] rows. -/
def dense (R : Nat) (Qf : (⟨2, ![R, 4]⟩ : Shape).Idx → EReal) (W1t : (⟨2, ![4, 2048]⟩ : Shape).Idx → EReal)
    (b1r : (⟨2, ![1, 2048]⟩ : Shape).Idx → EReal) (W2t : (⟨2, ![2048, 2048]⟩ : Shape).Idx → EReal)
    (b2r : (⟨2, ![1, 2048]⟩ : Shape).Idx → EReal) : (⟨2, ![R, 2048]⟩ : Shape).Idx → EReal := fun i =>
  (∑ g : Fin 2048, max (preact (fun k => Qf (ix2 (i 0) k)) (fun k => W1t (ix2 k g)) (b1r (ix2 (0 : Fin 1) g))) zero32
      * W2t (ix2 g (i 1))) + b2r (ix2 (0 : Fin 1) (i 1))

/-- A sum over 2048 columns whose left factor vanishes from the fifth column on is its first four terms: the other
    products have a zero factor. -/
theorem sum_zero_padded (p w : Fin 2048 → EReal) (hp : ∀ f : Fin 2048, 4 ≤ f.val → p f = 0) :
    ∑ f : Fin 2048, p f * w f = p (col 0) * w (col 0) + p (col 1) * w (col 1) + p (col 2) * w (col 2) + p (col 3) * w (col 3) := by
  have h := Fin.sum_univ_add (M := EReal) (a := 4) (b := 2044) (fun f => p f * w f)
  rw [show (∑ f : Fin 2048, p f * w f) = ∑ f : Fin (4 + 2044), p f * w f from rfl, h]
  have hz : ∑ f : Fin 2044, p (Fin.natAdd 4 f) * w (Fin.natAdd 4 f) = 0 :=
    Finset.sum_eq_zero fun f _ => by
      rw [hp (Fin.natAdd 4 f) (by show 4 ≤ 4 + f.val; omega), zero_mul]
  rw [hz, add_zero, Fin.sum_univ_four]
  rfl

end Cert.Ffn

end
-- ==== Proof.PointValue.lean ====
/-
  One grid point's arithmetic, index by index, on the extended reals.

  The body's stored value at row p, column e of its [512, 2048] block is `Σ_g hidden(p, g) · W2ᵀ[g, e] + b2[e]` with
  `hidden(p, g) = max(q[p,0]·w[0,g] + q[p,1]·w[1,g] + q[p,2]·w[2,g] + q[p,3]·w[3,g] + b1[g], 0)`: each column of the
  feature block spread along the row, each row of the weight block spread down the column, the products added left
  to right; the rounding to bf16 before the matrix product is the identity on the extended reals, and the matrix
  product into a zero accumulator is the plain sum over the hidden units.
-/
import proofs.«104519_j65481071402365_2_alg».proof.Proof.Gen.KernelIdeal.Skeleton
import proofs.«104519_j65481071402365_2_alg».proof.Proof.FfnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PointValue

open Cert.KernelIdeal Cert.KernelIdeal.Gen
open Idealize.ShloMosaic Idealize.ShloMosaic.ValueIdx
open scoped BigOperators

/-- Column `o` of a [512, 4] block, spread along the row, read at (p, e): the block at (p, o). -/
theorem col_spread (o : Nat) (q : (⟨2, ![512, 4]⟩ : Shape).Idx → EReal)
    (hs : (⟨2, ![512, 4]⟩ : Shape).Slices ![0, o] ⟨2, ![512, 1]⟩) (hb : (⟨2, ![512, 1]⟩ : Shape).Broadcasts ⟨2, ![512, 2048]⟩)
    (p : Fin 512) (e : Fin 2048) :
    broadcastTo ⟨2, ![512, 2048]⟩ (extractStridedSlice ⟨2, ![512, 1]⟩ ![0, o] q hs) hb (ix2 p e)
      = q (ix2 p ⟨o, by have := hs.2 1; exact this⟩) := by
  refine (broadcastTo_apply _ hb (ix2 p e) (ix2 p (0 : Fin 1)) fun ax => ?_).trans ?_
  · match ax with
    | ⟨0, _⟩ => show p.val = if (512 : Nat) = 1 then 0 else p.val; rw [if_neg (by decide)]
    | ⟨1, _⟩ => show (0 : Nat) = if (1 : Nat) = 1 then 0 else e.val; rw [if_pos rfl]
  · exact slice2_axis1_apply o q hs p (0 : Fin 1) _ rfl

/-- Row `o` of a [4, 2048] block cut out as a [1, 2048] row, read at (0, e): the block at (o, e). -/
theorem row_cut (o : Nat) (w : (⟨2, ![4, 2048]⟩ : Shape).Idx → EReal)
    (hs : (⟨2, ![4, 2048]⟩ : Shape).Slices ![o, 0] ⟨2, ![1, 2048]⟩) (e : Fin 2048) :
    extractStridedSlice ⟨2, ![1, 2048]⟩ ![o, 0] w hs (ix2 (0 : Fin 1) e)
      = w (ix2 ⟨o, by have := hs.2 0; exact this⟩ e) :=
  slice2_axis0_apply o w hs (0 : Fin 1) e _ rfl

/-- A [1, 2048] row, spread down the column, read at (p, e): the row at e. -/
theorem bias_spread (b : (⟨2, ![1, 2048]⟩ : Shape).Idx → EReal) (hb : (⟨2, ![1, 2048]⟩ : Shape).Broadcasts ⟨2, ![512, 2048]⟩)
    (p : Fin 512) (e : Fin 2048) : broadcastTo ⟨2, ![512, 2048]⟩ b hb (ix2 p e) = b (ix2 (0 : Fin 1) e) :=
  broadcastTo_1b_ab_apply b hb p e

/-- The left operand of the body's matrix product is read along its row: non-contracted axis 0. -/
theorem lhs_row (i : S512x2048.Idx) (k : dot_S512x2048_S2048x2048_S512x2048_1_0_0_1_n_n.contr.Idx) :
    (dot_S512x2048_S2048x2048_S512x2048_1_0_0_1_n_n.lhsIdx i k 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- The right operand is read down its column: non-contracted axis 1. -/
theorem rhs_col (i : S512x2048.Idx) (k : dot_S512x2048_S2048x2048_S512x2048_1_0_0_1_n_n.contr.Idx) :
    (dot_S512x2048_S2048x2048_S512x2048_1_0_0_1_n_n.rhsIdx i k 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The body's matrix product into a zero accumulator, at (p, e): the sum over the 2048 hidden units of the left operand's
    row p against the right operand's column e. -/
theorem product_at (H : FVec Ideal S512x2048 .bf16) (Wt : FVec Ideal S2048x2048 .bf16) (p : Fin 512) (e : Fin 2048) :
    FloatOps.matmul dot_S512x2048_S2048x2048_S512x2048_1_0_0_1_n_n none H Wt (constant (F := Ideal) S512x2048 .f32 0x00000000#32) (ix2 p e)
      = ∑ g : Fin 2048, H (ix2 p g) * Wt (ix2 g e) := by
  rw [Ideal.matmul_constant_zero_apply, ← Equiv.sum_comp (contrEquiv1 dot_S512x2048_S2048x2048_S512x2048_1_0_0_1_n_n 2048 rfl rfl).symm]
  refine Finset.sum_congr rfl fun g _ => ?_
  have hg := contrEquiv1_symm_val dot_S512x2048_S2048x2048_S512x2048_1_0_0_1_n_n 2048 rfl rfl g
  have el : dot_S512x2048_S2048x2048_S512x2048_1_0_0_1_n_n.lhsIdx (ix2 p e) ((contrEquiv1 dot_S512x2048_S2048x2048_S512x2048_1_0_0_1_n_n 2048 rfl rfl).symm g) = ix2 p g :=
    funext fun a => Fin.ext (by
      match a with
      | ⟨0, _⟩ => exact lhs_row _ _
      | ⟨1, _⟩ => exact (dot_S512x2048_S2048x2048_S512x2048_1_0_0_1_n_n.lhsIdx_val_of_single rfl _ _).trans hg)
  have er : dot_S512x2048_S2048x2048_S512x2048_1_0_0_1_n_n.rhsIdx (ix2 p e) ((contrEquiv1 dot_S512x2048_S2048x2048_S512x2048_1_0_0_1_n_n 2048 rfl rfl).symm g) = ix2 g e :=
    funext fun a => Fin.ext (by
      match a with
      | ⟨0, _⟩ => exact (dot_S512x2048_S2048x2048_S512x2048_1_0_0_1_n_n.rhsIdx_val_of_single rfl _ _).trans hg
      | ⟨1, _⟩ => exact rhs_col _ _)
  rw [el, er]

/-- THE POINT'S VALUE: what the body stores is the feed-forward block over the 512 rows it was given. -/
theorem stored_value (q : Vec Ideal S512x4 .f32) (w1 : Vec Ideal S4x2048 .f32) (b1 : Vec Ideal S1x2048 .f32)
    (w2 : Vec Ideal S2048x2048 .bf16) (b2 : Vec Ideal S1x2048 .f32) :
    k0_pay1 (F := Ideal) q w1 b1 w2 b2 = Cert.Ffn.dense 512 q w1 b1 w2 b2 := by
  funext j
  obtain ⟨p, e, rfl⟩ : ∃ (p : Fin 512) (e : Fin 2048), j = ix2 p e := ⟨j 0, j 1, eq_ix2 j⟩
  unfold k0_pay1 Cert.Ffn.dense Cert.Ffn.preact
  simp only [matmul, addf_apply, shapeCast_self]
  rw [product_at, bias_spread]
  simp only [truncf_apply, maximumf_apply, addf_apply, mulf_apply, broadcast_apply, col_spread, bias_spread, row_cut]
  rfl

end Cert.KernelIdeal.PointValue

end
-- ==== Proof.IdealResult.lean ====
/-
  The idealized kernel's result array, as one function of what the grid was given.

  Grid point t receives rows 512·t … 512·t + 511 of the feature array and the four parameter arrays whole, and
  writes rows 512·t … 512·t + 511 of the [32768, 2048] result: the 64 blocks tile the result, so it ends at the
  feed-forward block of all 32768 rows.
-/
import proofs.«104519_j65481071402365_2_alg».proof.Proof.IdealRegion
import proofs.«104519_j65481071402365_2_alg».proof.Proof.PointValue
import Idealize.ShloMosaic.Lib.Pipeline.Value

noncomputable section

namespace Cert.KernelIdeal.Result

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat)
open scoped BigOperators

/-- Where each window's block sits at point `t`: the feature window and the result window at block row `t`, the four
    parameter windows at their one block. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature window's block at point `t`, row r: row 512·t + r of the array. -/
theorem feature_rows (A : (⟨S32768x4, .f32⟩ : BufTy).Contents (Elt Ideal)) (t : Fin cfg0.N) (r : Fin 512) (k : Fin 4)
    (R : Fin 32768) (hR : R.val = t.val * 512 + r.val) :
    (((cfg0.win 0).blk t).view.read (Elt Ideal) A : S512x4.Idx → EReal) (ix2 r k) = (A : S32768x4.Idx → EReal) (ix2 R k) := by
  rw [View.read_apply]
  show (A : S32768x4.Idx → EReal) _ = (A : S32768x4.Idx → EReal) _
  congr 1
  funext a; apply Fin.ext
  match a with
  | ⟨0, _⟩ => show win0_0.index t (0 : Fin 2) * 512 + 1 * r.val = R.val; rw [(block_places t).1, hR]; omega
  | ⟨1, _⟩ => show win0_0.index t (1 : Fin 2) * 4 + 1 * k.val = k.val; rw [(block_places t).2.1]; omega

/-- The first-layer weight window's one block is its whole array. -/
theorem whole1 (A : (⟨S4x2048, .f32⟩ : BufTy).Contents (Elt Ideal)) (t : Fin cfg0.N) :
    (((cfg0.win 1).blk t).view.read (Elt Ideal) A : S4x2048.Idx → EReal) = (A : S4x2048.Idx → EReal) := by
  funext y
  rw [View.read_apply]
  show (A : S4x2048.Idx → EReal) _ = (A : S4x2048.Idx → EReal) _
  congr 1
  funext a; apply Fin.ext
  match a with
  | ⟨0, _⟩ => show win0_1.index t (0 : Fin 2) * 4 + 1 * (y 0).val = (y 0).val; rw [(block_places t).2.2.1]; omega
  | ⟨1, _⟩ => show win0_1.index t (1 : Fin 2) * 2048 + 1 * (y 1).val = (y 1).val; rw [(block_places t).2.2.2.1]; omega

/-- The first bias window's one block is its whole array. -/
theorem whole2 (A : (⟨S1x2048, .f32⟩ : BufTy).Contents (Elt Ideal)) (t : Fin cfg0.N) :
    (((cfg0.win 2).blk t).view.read (Elt Ideal) A : S1x2048.Idx → EReal) = (A : S1x2048.Idx → EReal) := by
  funext y
  rw [View.read_apply]
  show (A : S1x2048.Idx → EReal) _ = (A : S1x2048.Idx → EReal) _
  congr 1
  funext a; apply Fin.ext
  match a with
  | ⟨0, _⟩ => show win0_2.index t (0 : Fin 2) * 1 + 1 * (y 0).val = (y 0).val; rw [(block_places t).2.2.2.2.1]; omega
  | ⟨1, _⟩ => show win0_2.index t (1 : Fin 2) * 2048 + 1 * (y 1).val = (y 1).val; rw [(block_places t).2.2.2.2.2.1]; omega

/-- The second-layer weight window's one block is its whole array. -/
theorem whole3 (A : (⟨S2048x2048, .bf16⟩ : BufTy).Contents (Elt Ideal)) (t : Fin cfg0.N) :
    (((cfg0.win 3).blk t).view.read (Elt Ideal) A : S2048x2048.Idx → EReal) = (A : S2048x2048.Idx → EReal) := by
  funext y
  rw [View.read_apply]
  show (A : S2048x2048.Idx → EReal) _ = (A : S2048x2048.Idx → EReal) _
  congr 1
  funext a; apply Fin.ext
  match a with
  | ⟨0, _⟩ => show win0_3.index t (0 : Fin 2) * 2048 + 1 * (y 0).val = (y 0).val; rw [(block_places t).2.2.2.2.2.2.1]; omega
  | ⟨1, _⟩ => show win0_3.index t (1 : Fin 2) * 2048 + 1 * (y 1).val = (y 1).val; rw [(block_places t).2.2.2.2.2.2.2.1]; omega

/-- The second bias window's one block is its whole array. -/
theorem whole4 (A : (⟨S1x2048, .f32⟩ : BufTy).Contents (Elt Ideal)) (t : Fin cfg0.N) :
    (((cfg0.win 4).blk t).view.read (Elt Ideal) A : S1x2048.Idx → EReal) = (A : S1x2048.Idx → EReal) := by
  funext y
  rw [View.read_apply]
  show (A : S1x2048.Idx → EReal) _ = (A : S1x2048.Idx → EReal) _
  congr 1
  funext a; apply Fin.ext
  match a with
  | ⟨0, _⟩ => show win0_4.index t (0 : Fin 2) * 1 + 1 * (y 0).val = (y 0).val; rw [(block_places t).2.2.2.2.2.2.2.2.1]; omega
  | ⟨1, _⟩ => show win0_4.index t (1 : Fin 2) * 2048 + 1 * (y 1).val = (y 1).val; rw [(block_places t).2.2.2.2.2.2.2.2.2.1]; omega

/-- The result window's block at point `t`, row r: row 512·t + r of the array. -/
theorem result_rows (G : (⟨S32768x2048, .f32⟩ : BufTy).Contents (Elt Ideal)) (t : Fin cfg0.N) (r : Fin 512) (e : Fin 2048)
    (R : Fin 32768) (hR : R.val = t.val * 512 + r.val) :
    (((cfg0.win 5).blk t).view.read (Elt Ideal) G : S512x2048.Idx → EReal) (ix2 r e) = (G : S32768x2048.Idx → EReal) (ix2 R e) := by
  rw [View.read_apply]
  show (G : S32768x2048.Idx → EReal) _ = (G : S32768x2048.Idx → EReal) _
  congr 1
  funext a; apply Fin.ext
  match a with
  | ⟨0, _⟩ => show win0_5.index t (0 : Fin 2) * 512 + 1 * r.val = R.val; rw [(block_places t).2.2.2.2.2.2.2.2.2.2.1, hR]; omega
  | ⟨1, _⟩ => show win0_5.index t (1 : Fin 2) * 2048 + 1 * e.val = e.val; rw [(block_places t).2.2.2.2.2.2.2.2.2.2.2]; omega

/-- The feed-forward block of a row depends on the feature array through that row's four features only. -/
theorem dense_row_congr (R₁ R₂ : Nat) (Qa : (⟨2, ![R₁, 4]⟩ : Shape).Idx → EReal) (Qb : (⟨2, ![R₂, 4]⟩ : Shape).Idx → EReal)
    (W1t : (⟨2, ![4, 2048]⟩ : Shape).Idx → EReal) (b1r : (⟨2, ![1, 2048]⟩ : Shape).Idx → EReal)
    (W2t : (⟨2, ![2048, 2048]⟩ : Shape).Idx → EReal) (b2r : (⟨2, ![1, 2048]⟩ : Shape).Idx → EReal)
    (r₁ : Fin R₁) (r₂ : Fin R₂) (e : Fin 2048) (h : ∀ k : Fin 4, Qa (ix2 r₁ k) = Qb (ix2 r₂ k)) :
    Cert.Ffn.dense R₁ Qa W1t b1r W2t b2r (ix2 r₁ e) = Cert.Ffn.dense R₂ Qb W1t b1r W2t b2r (ix2 r₂ e) := by
  show (∑ g : Fin 2048, max (Cert.Ffn.preact (fun k => Qa (ix2 r₁ k)) (fun k => W1t (ix2 k g)) (b1r (ix2 (0 : Fin 1) g))) Cert.Ffn.zero32
        * W2t (ix2 g e)) + b2r (ix2 (0 : Fin 1) e)
      = (∑ g : Fin 2048, max (Cert.Ffn.preact (fun k => Qb (ix2 r₂ k)) (fun k => W1t (ix2 k g)) (b1r (ix2 (0 : Fin 1) g))) Cert.Ffn.zero32
        * W2t (ix2 g e)) + b2r (ix2 (0 : Fin 1) e)
  rw [show (fun k => Qa (ix2 r₁ k)) = (fun k => Qb (ix2 r₂ k)) from funext h]

variable (m : (ℓ : Loc nD τ sig) → Buf (Elt Ideal) ℓ) (ρ : Dev nD → PrngReg)

theorem zero_offsets : (![0, 0] : Fin 2 → Nat) = fun _ => 0 := funext fun a => by fin_cases a <;> rfl

/-- The result of all 32768 rows, from the arrays the grid finds. -/
abbrev flatResult (c : Dev nD) : S32768x2048.Idx → EReal :=
  Cert.Ffn.dense 32768 (atEntry m c main_v21) (atEntry m c main_v23) (atEntry m c main_v26) (atEntry m c main_v25) (atEntry m c main_v27)

/-- What point `t` writes back is block `t` of that. -/
theorem written_block (c : Dev nD) (t : Fin cfg0.N) :
    (gridData m 0 c).flushed 5 t = ((cfg0.win 5).blk t).view.read (Elt Ideal) (flatResult m c) := by
  show (cfg0.win 5).cut (grid0.coords t) ((gridData m 0 c).after 5 t) = _
  rw [left5]
  unfold stored
  rw [View.canon_unit_zero zero_offsets]
  simp only [View.ld_unit_zero (S := S512x4) zero_offsets, View.ld_unit_zero (S := S4x2048) zero_offsets,
    View.ld_unit_zero (S := S1x2048) zero_offsets, View.ld_unit_zero (S := S2048x2048) zero_offsets]
  rw [Cert.KernelIdeal.PointValue.stored_value]
  unfold blockAt
  rw [whole1, whole2, whole3, whole4]
  funext y
  obtain ⟨r, e, rfl⟩ : ∃ (r : Fin 512) (e : Fin 2048), y = ix2 r e := ⟨y 0, y 1, eq_ix2 y⟩
  have hN : cfg0.N = 64 := N_0
  have ht : t.val < 64 := hN ▸ t.isLt
  have hR : t.val * 512 + r.val < 32768 := by have := r.isLt; omega
  rw [result_rows _ t r e ⟨t.val * 512 + r.val, hR⟩ rfl]
  exact dense_row_congr 512 32768 _ _ _ _ _ _ r ⟨t.val * 512 + r.val, hR⟩ e fun k => feature_rows _ t r k _ rfl

/-- An index of the result is in point `t`'s block iff each coordinate is in the block's range on its axis. -/
theorem in_block (t : Fin cfg0.N) (i : S32768x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v28).slice (win0_5.rect t)).set ↔ _
  rw [View.set_slice_whole, Rect.mem_set_unit]
  exact Iff.rfl

/-- Every row of the result is in the block of the point that handles its 512 rows. -/
theorem rows_covered (i : S32768x2048.Idx) :
    ∃ t : Fin cfg0.N, (cfg0.win 5).flush t = true ∧ i ∈ ((cfg0.win 5).blk t).view.set := by
  have hN : cfg0.N = 64 := N_0
  have hi0 : (i 0).val < 32768 := (i 0).isLt
  have hi1 : (i 1).val < 2048 := (i 1).isLt
  have hlt : (i 0).val / 512 < cfg0.N := by rw [hN]; omega
  refine ⟨⟨(i 0).val / 512, hlt⟩, flush0_5 _, ?_⟩
  rw [in_block]
  have h0 : win0_5.index ⟨(i 0).val / 512, hlt⟩ (0 : Fin 2) = (i 0).val / 512 := (block_places ⟨(i 0).val / 512, hlt⟩).2.2.2.2.2.2.2.2.2.2.1
  have h1 : win0_5.index ⟨(i 0).val / 512, hlt⟩ (1 : Fin 2) = 0 := (block_places ⟨(i 0).val / 512, hlt⟩).2.2.2.2.2.2.2.2.2.2.2
  intro a
  match a with
  | ⟨0, _⟩ =>
    show win0_5.index ⟨(i 0).val / 512, hlt⟩ (0 : Fin 2) * 512 ≤ (i 0).val ∧ (i 0).val < win0_5.index ⟨(i 0).val / 512, hlt⟩ (0 : Fin 2) * 512 + 512
    rw [h0]; omega
  | ⟨1, _⟩ =>
    show win0_5.index ⟨(i 0).val / 512, hlt⟩ (1 : Fin 2) * 2048 ≤ (i 1).val ∧ (i 1).val < win0_5.index ⟨(i 0).val / 512, hlt⟩ (1 : Fin 2) * 2048 + 2048
    rw [h1]; omega

/-- THE RESULT ARRAY of the call after the grid: the feed-forward block of all 32768 rows. -/
theorem call_result (c : Dev nD) : (gridData m 0 c).arrAt 5 cfg0.N = flatResult m c :=
  (gridData m 0 c).arrAt_eq_of_cover 5 (flatResult m c) (fun t _ => written_block m c t) rows_covered

/-- The reshape after the call turns that array into the [8, 4096, 2048] result. -/
theorem reshaped (c : Dev nD) :
    Pipeline.afterTail₀ cfgs (gridData m) 0 (entryVal m) [hostOps1] c main_v29
      = shapeCast S8x4096x2048 (flatResult m c) shapeCasts_S32768x2048_S8x4096x2048 := by
  unfold Pipeline.afterTail₀
  show StableHlo.after hostOps1 _ (Proc.devRef .tc main_v29) = _
  after_results
  have e : (Pipeline.withArrays (cfgs 0).spec c (entryVal m c) (fun w => (gridData m 0 c).arrAt w (cfgs 0).N)
      (Proc.devRef .tc main_v28) : S32768x2048.Idx → EReal) = flatResult m c :=
    (Pipeline.withArrays_arr spec0 launch0.win.arr_inj c _ _ 5).trans (call_result m c)
  rw [e]
  rfl

/-- THE IDEALIZED KERNEL'S RUN, READ: it ends with its result at the reshaped feed-forward block of the arrays the grid
    was given, and its five arguments as launched. -/
theorem run_read : θ_run defs (onTc (τ := τ) (main (F := Ideal))) ⟨m, fun _ => 0, ρ⟩ (fun r => ∀ c : Dev nD,
      r.2.mem ((c.tc : Thread nD τ).loc main_v29) = shapeCast S8x4096x2048 (flatResult m c) shapeCasts_S32768x2048_S8x4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v29 (Pipeline.mem_restRefs_of main_v29 (by decide) (by decide))).trans (reshaped m c),
     ((h c).2 main_arg0 (Pipeline.mem_restRefs_of main_arg0 (by decide) (by decide))).trans (exit_arg0 m (gridData m) c),
     ((h c).2 main_arg1 (Pipeline.mem_restRefs_of main_arg1 (by decide) (by decide))).trans (exit_arg1 m (gridData m) c),
     ((h c).2 main_arg2 (Pipeline.mem_restRefs_of main_arg2 (by decide) (by decide))).trans (exit_arg2 m (gridData m) c),
     ((h c).2 main_arg3 (Pipeline.mem_restRefs_of main_arg3 (by decide) (by decide))).trans (exit_arg3 m (gridData m) c),
     ((h c).2 main_arg4 (Pipeline.mem_restRefs_of main_arg4 (by decide) (by decide))).trans (exit_arg4 m (gridData m) c)⟩)
    (whole_run m ρ)

end Cert.KernelIdeal.Result

end
-- ==== Proof.FfnLayouts.lean ====
/-
  The grid's arrangement of the parameters is the reference's, re-laid.

  The kernel hands its grid the tokens flat ([32768, 4], token (b, s) at row 4096·b + s), the first four columns of W1
  as rows, W2 transposed, and the biases as [1, 2048] rows, and reshapes the flat [32768, 2048] result back to
  [8, 4096, 2048]. Reading each re-laid array at an index gives back the original array at the matching index, so the
  feed-forward block of the flat rows, reshaped, is the feed-forward block of the tokens.
-/
import proofs.«104519_j65481071402365_2_alg».proof.Proof.FfnSpec
import Idealize.ShloMosaic.Lib.Pipeline.Value
import Idealize.ShloMosaic.Lib.ValueLayout

noncomputable section

namespace Cert.Ffn

open Idealize.ShloMosaic Idealize.ShloMosaic.ValueIdx
open scoped BigOperators

/-- The flat feed-forward block over the re-laid parameters, reshaped to tokens, is `ffn`. -/
theorem relaid_is_ffn (Q : (⟨3, ![8, 4096, 4]⟩ : Shape).Idx → EReal) (W1 W2 : (⟨2, ![2048, 2048]⟩ : Shape).Idx → EReal)
    (b1 b2 : (⟨1, ![2048]⟩ : Shape).Idx → EReal)
    (hq : (⟨3, ![8, 4096, 4]⟩ : Shape).ShapeCasts ⟨2, ![32768, 4]⟩)
    (hs : (⟨2, ![2048, 2048]⟩ : Shape).Slices ![0, 0] ⟨2, ![2048, 4]⟩)
    (ht1 : (⟨2, ![2048, 4]⟩ : Shape).Transposes [1, 0] ⟨2, ![4, 2048]⟩)
    (ht2 : (⟨2, ![2048, 2048]⟩ : Shape).Transposes [1, 0] ⟨2, ![2048, 2048]⟩)
    (hb : (⟨1, ![2048]⟩ : Shape).ShapeCasts ⟨2, ![1, 2048]⟩)
    (hr : (⟨2, ![32768, 2048]⟩ : Shape).ShapeCasts ⟨3, ![8, 4096, 2048]⟩)
    (hlt : FTy.bits .bf16 < FTy.bits .f32) :
    shapeCast ⟨3, ![8, 4096, 2048]⟩
      (dense 32768 (shapeCast ⟨2, ![32768, 4]⟩ Q hq)
        (transpose ⟨2, ![4, 2048]⟩ [1, 0] (extractStridedSlice ⟨2, ![2048, 4]⟩ ![0, 0] W1 hs) ht1)
        (shapeCast ⟨2, ![1, 2048]⟩ b1 hb)
        (truncf (F := Ideal) (φ := .f32) .bf16 (transpose ⟨2, ![2048, 2048]⟩ [1, 0] W2 ht2) hlt)
        (shapeCast ⟨2, ![1, 2048]⟩ b2 hb)) hr
      = ffn Q W1 b1 W2 b2 := by
  funext i
  obtain ⟨b, s, e, rfl⟩ : ∃ (b : Fin 8) (s : Fin 4096) (e : Fin 2048), i = ix3 b s e := ⟨i 0, i 1, i 2, eq_ix3 i⟩
  have hR : b.val * 4096 + s.val < 32768 := by have := b.isLt; have := s.isLt; omega
  rw [shapeCast_apply _ hr (ix3 b s e) (ix2 ⟨b.val * 4096 + s.val, hR⟩ e) (by
    rw [Shape.rowMajor_val_two, Shape.rowMajor_val_three]; rfl)]
  show (∑ g : Fin 2048, max (preact (fun k => shapeCast ⟨2, ![32768, 4]⟩ Q hq (ix2 ⟨b.val * 4096 + s.val, hR⟩ k))
          (fun k => transpose ⟨2, ![4, 2048]⟩ [1, 0] (extractStridedSlice ⟨2, ![2048, 4]⟩ ![0, 0] W1 hs) ht1 (ix2 k g))
          (shapeCast ⟨2, ![1, 2048]⟩ b1 hb (ix2 (0 : Fin 1) g))) zero32
        * transpose ⟨2, ![2048, 2048]⟩ [1, 0] W2 ht2 (ix2 g e)) + shapeCast ⟨2, ![1, 2048]⟩ b2 hb (ix2 (0 : Fin 1) e)
      = (∑ g : Fin 2048, max (preact (fun k => Q (ix3 b s k)) (fun k => W1 (ix2 g (col k))) (b1 (ix1 g))) zero32
        * W2 (ix2 e g)) + b2 (ix1 e)
  have hQ : (fun k : Fin 4 => shapeCast ⟨2, ![32768, 4]⟩ Q hq (ix2 ⟨b.val * 4096 + s.val, hR⟩ k)) = fun k => Q (ix3 b s k) :=
    funext fun k => shapeCast_apply Q hq _ _ (by rw [Shape.rowMajor_val_two, Shape.rowMajor_val_three]; rfl)
  have hW1 : ∀ g : Fin 2048, (fun k : Fin 4 => transpose ⟨2, ![4, 2048]⟩ [1, 0] (extractStridedSlice ⟨2, ![2048, 4]⟩ ![0, 0] W1 hs) ht1 (ix2 k g))
      = fun k => W1 (ix2 g (col k)) := fun g => funext fun k =>
    (transpose_ix2_apply _ ht1 k g).trans (slice2_axis1_apply 0 W1 hs g k (col k) (by show k.val = 0 + k.val; omega))
  have hW2 : ∀ g : Fin 2048, transpose ⟨2, ![2048, 2048]⟩ [1, 0] W2 ht2 (ix2 g e) = W2 (ix2 e g) := fun g =>
    transpose_ix2_apply W2 ht2 g e
  rw [hQ, shapeCast_a_1a_apply b2 hb 0 e]
  refine congrArg (· + b2 (ix1 e)) (Finset.sum_congr rfl fun g _ => ?_)
  rw [hW1 g, hW2 g, shapeCast_a_1a_apply b1 hb 0 g]

end Cert.Ffn

end
-- ==== Proof.KernelValue.lean ====
/-
  The idealized kernel's result as a function of its arguments.

  The arrays the grid is given are re-laid copies of the arguments — the token features flat, the first four columns of
  W1 as rows, W2 transposed (its rounding to bf16 the identity on the extended reals), the biases as rows — so the
  reshaped result of the call is the feed-forward block of the token features.
-/
import proofs.«104519_j65481071402365_2_alg».proof.Proof.IdealResult
import proofs.«104519_j65481071402365_2_alg».proof.Proof.FfnLayouts
import proofs.«104519_j65481071402365_2_alg».proof.Proof.Gen.ReferenceIdeal.Read
import Idealize.ShloMosaic.Lib.StableHlo.Run

noncomputable section

namespace Cert.KernelIdeal.Result

open Cert.KernelIdeal Cert.KernelIdeal.Gen Cert.KernelIdeal.Region
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The token features as both programs' host lines compute them from x (the same twenty-one operations). -/
abbrev tokenFeatures (c : Dev nD) : S8x4096x4.Idx → EReal :=
  Cert.ReferenceIdeal.Read.val_main_v20 (F := Ideal) (m ((c.tc : Thread nD τ).loc main_arg0))

/-- The grid's feature array: the token features laid flat. -/
theorem entry_tokens (c : Dev nD) :
    (atEntry m c main_v21 : S32768x4.Idx → EReal) = shapeCast S32768x4 (tokenFeatures m c) shapeCasts_S8x4096x4_S32768x4 := by
  show StableHlo.after hostOps0 (fun b => m (c, b)) (Proc.devRef .tc main_v21) = _
  after_results <;> rfl

/-- The grid's first-layer weights: the first four columns of W1, as rows. -/
theorem entry_w1 (c : Dev nD) :
    (atEntry m c main_v23 : S4x2048.Idx → EReal)
      = transpose S4x2048 [1, 0] (extractStridedSlice S2048x4 ![0, 0] (m ((c.tc : Thread nD τ).loc main_arg1)) slices_S2048x2048_S2048x4_0_0) transposes_S2048x4_S4x2048_1_0 := by
  show StableHlo.after hostOps0 (fun b => m (c, b)) (Proc.devRef .tc main_v23) = _
  after_results <;> rfl

/-- The grid's second-layer weights: W2 transposed and rounded. -/
theorem entry_w2 (c : Dev nD) :
    (atEntry m c main_v25 : S2048x2048.Idx → EReal)
      = truncf (F := Ideal) (φ := .f32) .bf16 (transpose S2048x2048 [1, 0] (m ((c.tc : Thread nD τ).loc main_arg3)) transposes_S2048x2048_S2048x2048_1_0) bitsLt_bf16_f32 := by
  show StableHlo.after hostOps0 (fun b => m (c, b)) (Proc.devRef .tc main_v25) = _
  after_results <;> rfl

/-- The grid's biases: b1 and b2 as rows. -/
theorem entry_b1 (c : Dev nD) :
    (atEntry m c main_v26 : S1x2048.Idx → EReal) = shapeCast S1x2048 (m ((c.tc : Thread nD τ).loc main_arg2)) shapeCasts_S2048_S1x2048 := by
  show StableHlo.after hostOps0 (fun b => m (c, b)) (Proc.devRef .tc main_v26) = _
  after_results <;> rfl
theorem entry_b2 (c : Dev nD) :
    (atEntry m c main_v27 : S1x2048.Idx → EReal) = shapeCast S1x2048 (m ((c.tc : Thread nD τ).loc main_arg4)) shapeCasts_S2048_S1x2048 := by
  show StableHlo.after hostOps0 (fun b => m (c, b)) (Proc.devRef .tc main_v27) = _
  after_results <;> rfl

/-- THE KERNEL'S VALUE: the reshaped result of the call is the feed-forward block of the token features. -/
theorem kernel_value (c : Dev nD) :
    shapeCast S8x4096x2048 (flatResult m c) shapeCasts_S32768x2048_S8x4096x2048
      = Cert.Ffn.ffn (tokenFeatures m c) (m ((c.tc : Thread nD τ).loc main_arg1)) (m ((c.tc : Thread nD τ).loc main_arg2))
          (m ((c.tc : Thread nD τ).loc main_arg3)) (m ((c.tc : Thread nD τ).loc main_arg4)) := by
  show shapeCast S8x4096x2048 (Cert.Ffn.dense 32768 (atEntry m c main_v21) (atEntry m c main_v23) (atEntry m c main_v26)
    (atEntry m c main_v25) (atEntry m c main_v27)) shapeCasts_S32768x2048_S8x4096x2048 = _
  rw [entry_tokens, entry_w1, entry_b1, entry_w2, entry_b2]
  exact Cert.Ffn.relaid_is_ffn _ _ _ _ _ _ _ _ _ _ _ _

end Cert.KernelIdeal.Result

end
-- ==== Proof.RefValue.lean ====
/-
  The reference, read index by index, is the feed-forward block of the token features.

  The reference pads the four features of a token with 2044 zeros and contracts all 2048 columns of W1 against them;
  only the first four products survive. Everything else is read off one operation at a time.
-/
import proofs.«104519_j65481071402365_2_alg».proof.Proof.Gen.ReferenceIdeal.Read
import proofs.«104519_j65481071402365_2_alg».proof.Proof.FfnSpec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The features padded to 2048 columns, read at column f of token (b, s): the feature when f < 4, the pad value
    otherwise. -/
theorem padded_at {α : Type} (Q : S8x4096x4.Idx → α) (v : S_.Idx → α)
    (h : S8x4096x4.Pads ![0, 0, 0] ![0, 0, 2044] ![0, 0, 0] S8x4096x2048) (hu : 0 < S_.numel)
    (b : Fin 8) (s : Fin 4096) (f : Fin 2048) :
    pad S8x4096x2048 ![0, 0, 0] ![0, 0, 2044] ![0, 0, 0] Q v h hu (ix3 b s f)
      = if hf : f.val < 4 then Q (ix3 b s ⟨f.val, hf⟩) else v ix0 := by
  unfold pad
  by_cases hf : f.val < 4
  · rw [dif_pos hf, dif_pos (fun a => by
      match a with
      | ⟨0, _⟩ => exact ⟨Nat.zero_le _, Nat.mod_one _, by show (b.val - 0) / (0 + 1) < 8; have := b.isLt; omega⟩
      | ⟨1, _⟩ => exact ⟨Nat.zero_le _, Nat.mod_one _, by show (s.val - 0) / (0 + 1) < 4096; have := s.isLt; omega⟩
      | ⟨2, _⟩ => exact ⟨Nat.zero_le _, Nat.mod_one _, by show (f.val - 0) / (0 + 1) < 4; omega⟩)]
    refine congrArg Q (funext fun a => Fin.ext ?_)
    match a with
    | ⟨0, _⟩ => show (b.val - 0) / (0 + 1) = b.val; omega
    | ⟨1, _⟩ => show (s.val - 0) / (0 + 1) = s.val; omega
    | ⟨2, _⟩ => show (f.val - 0) / (0 + 1) = f.val; omega
  · rw [dif_neg hf, dif_neg (fun hin => hf (by
      have h2 : (f.val - 0) / (0 + 1) < 4 := (hin (2 : Fin 3)).2.2
      omega))]
    exact congrArg v (funext fun a => a.elim0)

/-- The pad value is the integer zero converted: zero. -/
theorem pad_value_zero : val_main_call0_v0 (F := Ideal) ix0 = 0 := by
  show ((BitVec.toInt (0#32) : ℝ) : EReal) = 0
  simp

/-- The padded features at a column from the fifth on are zero, -/
theorem padded_tail (x0 : (⟨S8x4096x2048, .f32⟩ : BufTy).Contents (Elt Ideal)) (b : Fin 8) (s : Fin 4096) (f : Fin 2048)
    (hf : 4 ≤ f.val) : val_main_v21 (F := Ideal) x0 (ix3 b s f) = 0 := by
  unfold val_main_v21
  rw [padded_at, dif_neg (by omega)]
  exact pad_value_zero

/-- and at the first four columns the features. -/
theorem padded_head (x0 : (⟨S8x4096x2048, .f32⟩ : BufTy).Contents (Elt Ideal)) (b : Fin 8) (s : Fin 4096) (k : Fin 4) :
    val_main_v21 (F := Ideal) x0 (ix3 b s (Cert.Ffn.col k)) = val_main_v20 (F := Ideal) x0 (ix3 b s k) := by
  unfold val_main_v21
  rw [padded_at, dif_pos (show (Cert.Ffn.col k).val < 4 from k.isLt)]

/-- A hidden unit of the reference: the rectified four-term pre-activation. -/
theorem hidden_at (x0 : (⟨S8x4096x2048, .f32⟩ : BufTy).Contents (Elt Ideal)) (x1 : (⟨S2048x2048, .f32⟩ : BufTy).Contents (Elt Ideal))
    (x2 : (⟨S2048, .f32⟩ : BufTy).Contents (Elt Ideal)) (b : Fin 8) (s : Fin 4096) (g : Fin 2048) :
    val_main_v26 (F := Ideal) x0 x1 x2 (ix3 b s g)
      = max (Cert.Ffn.preact (fun k => val_main_v20 (F := Ideal) x0 (ix3 b s k)) (fun k => x1 (ix2 g (Cert.Ffn.col k))) (x2 (ix1 g)))
          Cert.Ffn.zero32 := by
  rw [val_main_v26_apply, val_main_v25_apply, val_main_v22_apply, val_main_v24_apply, val_main_v23_apply,
    val_main_call1_v0_apply, val_main_call1_cst_apply]
  have hl : ∀ k : Fin 2048, lidx_main_v22 (ix3 b s g) k = ix3 b s k := fun k => funext fun a => Fin.ext (by
    match a with | ⟨0, _⟩ => rfl | ⟨1, _⟩ => rfl | ⟨2, _⟩ => rfl)
  have hr : ∀ k : Fin 2048, ridx_main_v22 (ix3 b s g) k = ix2 g k := fun k => funext fun a => Fin.ext (by
    match a with | ⟨0, _⟩ => rfl | ⟨1, _⟩ => rfl)
  have hb : idx_main_v23 (idx_main_v24 (ix3 b s g)) = ix1 g := funext fun a => Fin.ext (by
    match a with | ⟨0, _⟩ => rfl)
  simp only [hl, hr, hb]
  rw [Cert.Ffn.sum_zero_padded (fun f => val_main_v21 (F := Ideal) x0 (ix3 b s f)) (fun f => x1 (ix2 g f))
    (fun f hf => padded_tail x0 b s f hf)]
  simp only [padded_head]
  rfl

/-- THE REFERENCE'S VALUE: its result is the feed-forward block of the token features. -/
theorem reference_is_ffn (x0 : (⟨S8x4096x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x2048, .f32⟩ : BufTy).Contents (Elt Ideal))
    (x4 : (⟨S2048, .f32⟩ : BufTy).Contents (Elt Ideal)) :
    val_main_v30 (F := Ideal) x0 x1 x2 x3 x4 = Cert.Ffn.ffn (val_main_v20 (F := Ideal) x0) x1 x2 x3 x4 := by
  funext i
  obtain ⟨b, s, e, rfl⟩ : ∃ (b : Fin 8) (s : Fin 4096) (e : Fin 2048), i = ix3 b s e := ⟨i 0, i 1, i 2, eq_ix3 i⟩
  rw [val_main_v30_apply, val_main_v27_apply, val_main_v29_apply, val_main_v28_apply]
  have hl : ∀ k : Fin 2048, lidx_main_v27 (ix3 b s e) k = ix3 b s k := fun k => funext fun a => Fin.ext (by
    match a with | ⟨0, _⟩ => rfl | ⟨1, _⟩ => rfl | ⟨2, _⟩ => rfl)
  have hr : ∀ k : Fin 2048, ridx_main_v27 (ix3 b s e) k = ix2 e k := fun k => funext fun a => Fin.ext (by
    match a with | ⟨0, _⟩ => rfl | ⟨1, _⟩ => rfl)
  have hb : idx_main_v28 (idx_main_v29 (ix3 b s e)) = ix1 e := funext fun a => Fin.ext (by
    match a with | ⟨0, _⟩ => rfl)
  simp only [hl, hr, hb, hidden_at]
  rfl

end Cert.ReferenceIdeal.RefValue

end
-- ==== Proof.lean ====
/-
  The claims of this certificate.

  Both programs compute, for every token (b, s) and output coordinate e,
      Σ_g max(q₀·W1[g,0] + q₁·W1[g,1] + q₂·W1[g,2] + q₃·W1[g,3] + b1[g], 0) · W2[e,g] + b2[e]
  where q = (cos x₀, cos x₀ · cos x₁, cos x₂, cos x₂ · cos x₃) are the token's four features, computed by the same host
  lines in both. The kernel contracts the four features directly; the reference pads them with zeros to 2048 columns
  and contracts all of W1's columns — on the extended reals a zero factor kills its product, so the two hidden layers
  agree with no appeal to finiteness of the inputs. The kernel's tiling of the tokens into 64 blocks of 512, its
  transposed copies of the weights and the bf16 rounding before its matrix product change nothing at the ideal values.

  The three frames: each kernel program is run from its launch to its last host line (Proof/BitsRegion.lean,
  Proof/IdealRegion.lean); the reference is a straight line of host operations. The idealization rewrote nothing, so
  there is nothing to preserve.
-/
import proofs.«104519_j65481071402365_2_alg».proof.Defs
import proofs.«104519_j65481071402365_2_alg».proof.Proof.Gen.Kernel
import proofs.«104519_j65481071402365_2_alg».proof.Proof.Gen.KernelIdeal
import proofs.«104519_j65481071402365_2_alg».proof.Proof.Gen.ReferenceIdeal
import proofs.«104519_j65481071402365_2_alg».proof.Proof.Gen.ReferenceIdeal.Run
import proofs.«104519_j65481071402365_2_alg».proof.Proof.Gen.ReferenceIdeal.Read
import proofs.«104519_j65481071402365_2_alg».proof.Proof.Gen.Pre_finite_inputs
import proofs.«104519_j65481071402365_2_alg».proof.Proof.BitsRegion
import proofs.«104519_j65481071402365_2_alg».proof.Proof.IdealRegion
import proofs.«104519_j65481071402365_2_alg».proof.Proof.KernelValue
import proofs.«104519_j65481071402365_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame (F := Bits) m ρ

theorem frame_kernel_ideal : Cert.frame_KernelIdeal := fun m ρ _ => Cert.KernelIdeal.Region.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel ends at the feed-forward block of the token features (its run read in Proof/IdealResult.lean and
    Proof/KernelValue.lean), the reference at its operations' term of arguments that agree with the kernel's — which is
    the same block (Proof/RefValue.lean). -/
theorem algebraic : Cert.algebraic_KernelIdeal_ReferenceIdeal := by
  intro m ρ m' ρ' _ hagree
  refine ⟨fun c => Cert.Ffn.ffn (Cert.KernelIdeal.Result.tokenFeatures m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.kernel_value m c), (h c).2⟩)
      (Cert.KernelIdeal.Result.run_read m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.ReferenceIdeal.RefValue.reference_is_ffn,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
